-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16 : Shape := ⟨2, ![10000, 16]⟩
abbrev S10000x10000 : Shape := ⟨2, ![10000, 10000]⟩
abbrev S10000x1 : Shape := ⟨2, ![10000, 1]⟩
abbrev S_ : Shape := ⟨0, ![]⟩

class Facts : Prop where
  bcast_S_S10000x16 : S_.BroadcastsInDim S10000x16 (![] : Fin 0 → Fin S10000x16.rank)
  reducesTo_S10000x16_S_d0_1 : S10000x16.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x1 : S_.BroadcastsInDim S10000x1 (![] : Fin 0 → Fin S10000x1.rank)
  reducesTo_S10000x1_S_d0_1 : S10000x1.ReducesTo [0, 1] S_

variable [Facts]

def fn {F : FTy → Type} [FloatOps F] (main_arg0 : FVec F S10000x16 .f32) (main_arg1 : FVec F S10000x10000 .f32) (main_arg2 : FVec F S10000x1 .f32) : IVec S_ 1 :=
  let main_v0 : FVec F S10000x16 .f32 := Host.absf main_arg0
  let main_cst : FVec F S_ .f32 := constant S_ .f32 0x7F800000#32
  let main_v1 : FVec F S10000x16 .f32 := broadcastInDim S10000x16 ![] bcast_S_S10000x16 main_cst
  let main_v2 : IVec S10000x16 1 := cmpf .olt main_v0 main_v1
  let main_c : IVec S_ 1 := constantI S_ 1 1#1
  let main_v3 : IVec S_ 1 := (fun x v => Host.reduce IntOp.andi x v reducesTo_S10000x16_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x1 .f32 := Host.absf main_arg2
  let main_cst_2 : FVec F S_ .f32 := constant S_ .f32 0x7F800000#32
  let main_v10 : FVec F S10000x1 .f32 := broadcastInDim S10000x1 ![] bcast_S_S10000x1 main_cst_2
  let main_v11 : IVec S10000x1 1 := cmpf .olt main_v9 main_v10
  let main_c_3 : IVec S_ 1 := constantI S_ 1 1#1
  let main_v12 : IVec S_ 1 := (fun x v => Host.reduce IntOp.andi x v reducesTo_S10000x1_S_d0_1 h_S_) main_v11 main_c_3
  let main_v13 : IVec S_ 1 := andi main_v8 main_v12
  main_v13
-- ==== Kernel.lean ====
abbrev S10000x16 : Shape := ⟨2, ![10000, 16]⟩
abbrev S10000x10000 : Shape := ⟨2, ![10000, 10000]⟩
abbrev S10000x1 : Shape := ⟨2, ![10000, 1]⟩
abbrev S16x10000 : Shape := ⟨2, ![16, 10000]⟩
abbrev S16x1 : Shape := ⟨2, ![16, 1]⟩
abbrev S1x16 : Shape := ⟨2, ![1, 16]⟩
abbrev S_ : Shape := ⟨0, ![]⟩
abbrev S1x1 : Shape := ⟨2, ![1, 1]⟩
abbrev S200x10000 : Shape := ⟨2, ![200, 10000]⟩
abbrev S200x16 : Shape := ⟨2, ![200, 16]⟩
abbrev S1x200x10000 : Shape := ⟨3, ![1, 200, 10000]⟩
abbrev S1 : Shape := ⟨1, ![1]⟩
abbrev S1x1x1 : Shape := ⟨3, ![1, 1, 1]⟩
abbrev S16 : Shape := ⟨1, ![16]⟩

abbrev nBuf : Space → Nat
  | .hbm => 23
  | .vmem => 7
  | .smem => 0
  | _ => 0

abbrev bufTy : (tb : Table) → Fin (tcTables nBuf tb) → BufTy
  | .hbm, ⟨0, _⟩ => ⟨S10000x16, .f32⟩
  | .hbm, ⟨1, _⟩ => ⟨S10000x10000, .f32⟩
  | .hbm, ⟨2, _⟩ => ⟨S10000x1, .f32⟩
  | .hbm, ⟨3, _⟩ => ⟨S16x10000, .f32⟩
  | .hbm, ⟨4, _⟩ => ⟨S16x1, .f32⟩
  | .hbm, ⟨5, _⟩ => ⟨S1x16, .f32⟩
  | .hbm, ⟨6, _⟩ => ⟨S10000x16, .f32⟩
  | .hbm, ⟨7, _⟩ => ⟨S10000x16, .f32⟩
  | .hbm, ⟨8, _⟩ => ⟨S_, .f32⟩
  | .hbm, ⟨9, _⟩ => ⟨S10000x16, .f32⟩
  | .hbm, ⟨10, _⟩ => ⟨S10000x16, .f32⟩
  | .hbm, ⟨11, _⟩ => ⟨S16x10000, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S200x10000, .f32⟩
  | .local _ .vmem, ⟨1, _⟩ => ⟨S200x10000, .f32⟩
  | .local _ .vmem, ⟨2, _⟩ => ⟨S200x16, .f32⟩
  | .local _ .vmem, ⟨3, _⟩ => ⟨S200x16, .f32⟩
  | .local _ .vmem, ⟨4, _⟩ => ⟨S16x10000, .f32⟩
  | .local _ .vmem, ⟨5, _⟩ => ⟨S1x1, .f32⟩
  | .local _ .vmem, ⟨6, _⟩ => ⟨S1x1, .f32⟩
  | _, _ => ⟨S10000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S10000x16_S16x10000_1_0 : S10000x16.Transposes [1, 0] S16x10000
  shapeCasts_S16x1_S1x16 : S16x1.ShapeCasts S1x16
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S200x16_S200x16_0_0 : ∀ a, (![0, 0] : Fin 2 → Nat) a + S200x16.size a ≤ S200x16.size a
  h_S200x16 : 0 < S200x16.numel
  shapeCasts_S200x16_S200x16 : S200x16.ShapeCasts S200x16
  inb_S16x10000_S16x10000_0_0 : ∀ a, (![0, 0] : Fin 2 → Nat) a + S16x10000.size a ≤ S16x10000.size a
  h_S16x10000 : 0 < S16x10000.numel
  shapeCasts_S16x10000_S16x10000 : S16x10000.ShapeCasts S16x10000
  inb_S200x10000_S200x10000_0_0 : ∀ a, (![0, 0] : Fin 2 → Nat) a + S200x10000.size a ≤ S200x10000.size a
  h_S200x10000 : 0 < S200x10000.numel
  shapeCasts_S200x10000_S1x200x10000 : S200x10000.ShapeCasts S1x200x10000
  reduces_S1x200x10000_S1 : S1x200x10000.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  reducesTo_S10000x16_S16_d0 : S10000x16.ReducesTo [0] S16
  h_S_ : 0 < S_.numel
  bcast_S_S16 : S_.BroadcastsInDim S16 (![] : Fin 0 → Fin S16.rank)
  reducesTo_S16_S_d0 : S16.ReducesTo [0] S_
  dot_S16x10000_S10000x1_S16x1_1_0_0_1_n_n_wf : DotDims.WF S16x10000 S10000x1 S16x1 [1] [0] [0] [1] [] []
  dot_S200x16_S16x10000_S200x10000_1_0_0_1_n_n_wf : DotDims.WF S200x16 S16x10000 S200x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x16.size a ≤ S10000x16.size a
  hwx0_1 : ∀ i : grid0.Coords, EltTy.bits .f32 = 32 ∨ (Rect.block (s := S10000x16) S200x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x10000.size a ≤ S16x10000.size a
  hwx0_2 : ∀ i : grid0.Coords, EltTy.bits .f32 = 32 ∨ (Rect.block (s := S16x10000) S16x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S16x10000_S10000x1_S16x1_1_0_0_1_n_n : DotDims S16x10000 S10000x1 S16x1 where
  lhsContracting := [1]
  rhsContracting := [0]
  lhsNonContracting := [0]
  rhsNonContracting := [1]
  lhsBatch := []
  rhsBatch := []
  wf := dot_S16x10000_S10000x1_S16x1_1_0_0_1_n_n_wf
def dot_S200x16_S16x10000_S200x10000_1_0_0_1_n_n : DotDims S200x16 S16x10000 S200x10000 where
  lhsContracting := [1]
  rhsContracting := [0]
  lhsNonContracting := [0]
  rhsNonContracting := [1]
  lhsBatch := []
  rhsBatch := []
  wf := dot_S200x16_S16x10000_S200x10000_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S200x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x16 : Shape := ⟨2, ![10000, 16]⟩
abbrev S10000x10000 : Shape := ⟨2, ![10000, 10000]⟩
abbrev S10000x1 : Shape := ⟨2, ![10000, 1]⟩
abbrev S16x10000 : Shape := ⟨2, ![16, 10000]⟩
abbrev S16x1 : Shape := ⟨2, ![16, 1]⟩
abbrev S1x16 : Shape := ⟨2, ![1, 16]⟩
abbrev S_ : Shape := ⟨0, ![]⟩
abbrev S16 : Shape := ⟨1, ![16]⟩

abbrev nBuf : Space → Nat
  | .hbm => 25
  | .vmem => 0
  | .smem => 0
  | _ => 0

abbrev bufTy : (tb : Table) → Fin (tcTables nBuf tb) → BufTy
  | .hbm, ⟨0, _⟩ => ⟨S10000x16, .f32⟩
  | .hbm, ⟨1, _⟩ => ⟨S10000x10000, .f32⟩
  | .hbm, ⟨2, _⟩ => ⟨S10000x1, .f32⟩
  | .hbm, ⟨3, _⟩ => ⟨S16x10000, .f32⟩
  | .hbm, ⟨4, _⟩ => ⟨S16x1, .f32⟩
  | .hbm, ⟨5, _⟩ => ⟨S1x16, .f32⟩
  | .hbm, ⟨6, _⟩ => ⟨S10000x16, .f32⟩
  | .hbm, ⟨7, _⟩ => ⟨S10000x16, .f32⟩
  | .hbm, ⟨8, _⟩ => ⟨S16x10000, .f32⟩
  | .hbm, ⟨9, _⟩ => ⟨S_, .f32⟩
  | .hbm, ⟨10, _⟩ => ⟨S16x10000, .f32⟩
  | .hbm, ⟨11, _⟩ => ⟨S16x10000, .f32⟩
  | .hbm, ⟨12, _⟩ => ⟨S10000x10000, .f32⟩
  | .hbm, ⟨13, _⟩ => ⟨S10000x10000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S_, .f32⟩
  | _, _ => ⟨S10000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  transposes_S10000x16_S16x10000_1_0 : S10000x16.Transposes [1, 0] S16x10000
  shapeCasts_S16x1_S1x16 : S16x1.ShapeCasts S1x16
  bcast_S1x16_S10000x16_0_1 : S1x16.BroadcastsInDim S10000x16 (![0, 1] : Fin 2 → Fin S10000x16.rank)
  bcast_S_S16x10000 : S_.BroadcastsInDim S16x10000 (![] : Fin 0 → Fin S16x10000.rank)
  reducesTo_S10000x10000_S_d0_1 : S10000x10000.ReducesTo [0, 1] S_
  h_S_ : 0 < S_.numel
  reducesTo_S10000x16_S16_d0 : S10000x16.ReducesTo [0] S16
  bcast_S_S16 : S_.BroadcastsInDim S16 (![] : Fin 0 → Fin S16.rank)
  reducesTo_S16_S_d0 : S16.ReducesTo [0] S_
  dot_S16x10000_S10000x1_S16x1_1_0_0_1_n_n_wf : DotDims.WF S16x10000 S10000x1 S16x1 [1] [0] [0] [1] [] []
  dot_S10000x16_S16x10000_S10000x10000_1_0_0_1_n_n_wf : DotDims.WF S10000x16 S16x10000 S10000x10000 [1] [0] [0] [1] [] []

variable [Facts₀]

def dot_S16x10000_S10000x1_S16x1_1_0_0_1_n_n : DotDims S16x10000 S10000x1 S16x1 where
  lhsContracting := [1]
  rhsContracting := [0]
  lhsNonContracting := [0]
  rhsNonContracting := [1]
  lhsBatch := []
  rhsBatch := []
  wf := dot_S16x10000_S10000x1_S16x1_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.LibReadBack.lean ====
/-
  Two small readings, at any shapes and extents.

  * `readCov_cons_unit_zero`: a load through the whole-shape rectangle at zero offsets, made after a list of stores whose
    LAST store went through that same rectangle, reads the last store's payload, whatever the earlier stores were (an
    accumulator stored whole, perhaps several times, then read back).
  * `shapeCast_eval`, `sum_shapeCast`: a reshaped array at an index is the array at the index with the same row-major
    position, so the sum of every entry of a reshaped array, in any additive commutative monoid, is the sum of every
    entry of the array.
-/
import Idealize.ShloMosaic.Lib.Pipeline.Value

open scoped BigOperators

noncomputable section

namespace Cert.Lib.ReadBack

open Idealize.ShloMosaic

/-- A load through the whole-shape rectangle at zero offsets, after a LAST store through it, reads that store's payload
    whatever the earlier stores were. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

/-- A reshaped array at an index is the array at the index with the same row-major position. -/
theorem shapeCast_eval {s t : Shape} {α : Type} (x : s.Idx → α) (h : s.ShapeCasts t) (j : t.Idx) :
    shapeCast t x h j = x (Shape.reshapeEquiv h j) := rfl

/-- The sum of every entry of a reshaped array is the sum of every entry of the array. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

end Cert.Lib.ReadBack

end
-- ==== Proof.Pieces.lean ====
/-
  What one run of the kernel body leaves in the 1 × 1 accumulator and in the 1 × 1 output block, as values.

  The body has two cases.  At the first grid point it stores the zero block `z` into the accumulator, reads it back,
  stores `p(L, R, A, z)` — the accumulated value computed from the point's blocks `L`, `R`, `A` and what was read — into
  the accumulator, reads that back and stores it into the output block.  At every later point the accumulator arrives
  holding some `acc`, and the body stores `p(L, R, A, acc)` into it, reads it back and stores it into the output block.
  Every store and every load goes through the whole 1 × 1 buffer at offset zero, so a load returns exactly the payload
  of the store before it, and in both cases the accumulator and the output block end holding the same value:
  `p(L, R, A, z)` in the first case, `p(L, R, A, acc)` in the second.  These hold for any float values.
-/
import proofs.«179650_j60988535603742_1_alg».proof.Proof.Gen.KernelIdeal.Frame
import proofs.«179650_j60988535603742_1_alg».proof.Proof.LibReadBack
import Idealize.ShloMosaic.Lib.Pipeline.Value
import Idealize.ShloMosaic.Lib.Tactic

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offset of every access of the body, however it is spelt, is zero on both axes. -/
theorem hz : (![0, 0] : Fin 2 → Nat) = fun _ => 0 := funext fun a => by fin_cases a <;> rfl

/-- A later point leaves in the accumulator the accumulated value over what the accumulator held. -/
theorem sout_B (c : Dev nD) (i : grid0.Coords) (arg1 : Memref sig .tc .vmem S200x10000 .f32) (harg1 : arg1.IsWhole) (arg2 : Memref sig .tc .vmem S200x16 .f32) (harg2 : arg2.IsWhole) (arg3 : Memref sig .tc .vmem S16x10000 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S200x10000 .f32) (x1 : Vec F S200x16 .f32) (x2 : Vec F S16x10000 .f32) (xs0 : Vec F S1x1 .f32) :
    sout0_B_0 c i arg1 harg1 arg2 harg2 arg3 harg3 arg4 harg4 arg5 harg5 hc0 x0 x1 x2 xs0 = k0_pay2 x1 x2 x0 xs0 := by
  unfold sout0_B_0
  rw [View.read_writes_eq_canon _ _ _ (scover0_B_0 c i arg1 harg1 arg2 harg2 arg3 harg3 arg4 harg4 arg5 harg5 hc0 x0 x1 x2 xs0)]
  unfold kernelRun0_B
  dsimp only
  sl_unfold_words
  rw [View.canon_unit_zero hz]
  simp only [View.readAt_eq_ld, harg1.read_unread, harg2.read_unread, harg3.read_unread, harg5.read_unread,
    View.ld_unit_zero (S := S200x16) hz, View.ld_unit_zero (S := S16x10000) hz, View.ld_unit_zero (S := S200x10000) hz,
    View.ld_unit_zero (S := S1x1) hz]

/-- The first point leaves in the accumulator the accumulated value over the zero block it stored first. -/
theorem sout_A (c : Dev nD) (i : grid0.Coords) (arg1 : Memref sig .tc .vmem S200x10000 .f32) (harg1 : arg1.IsWhole) (arg2 : Memref sig .tc .vmem S200x16 .f32) (harg2 : arg2.IsWhole) (arg3 : Memref sig .tc .vmem S16x10000 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S200x10000 .f32) (x1 : Vec F S200x16 .f32) (x2 : Vec F S16x10000 .f32) :
    sout0_A_0 c i arg1 harg1 arg2 harg2 arg3 harg3 arg4 harg4 arg5 harg5 hc0 x0 x1 x2 = k0_pay2 x1 x2 x0 k0_pay1 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread,
    View.ld_unit_zero (S := S200x16) hz, View.ld_unit_zero (S := S16x10000) hz, View.ld_unit_zero (S := S200x10000) hz,
    View.ld_unit_zero (S := S1x1) hz]

/-- A later point leaves in the output block what it left in the accumulator. -/
theorem out_B (c : Dev nD) (i : grid0.Coords) (arg1 : Memref sig .tc .vmem S200x10000 .f32) (harg1 : arg1.IsWhole) (arg2 : Memref sig .tc .vmem S200x16 .f32) (harg2 : arg2.IsWhole) (arg3 : Memref sig .tc .vmem S16x10000 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S200x10000 .f32) (x1 : Vec F S200x16 .f32) (x2 : Vec F S16x10000 .f32) (xs0 : Vec F S1x1 .f32) :
    out0_B_3 c i arg1 harg1 arg2 harg2 arg3 harg3 arg4 harg4 arg5 harg5 hc0 x0 x1 x2 xs0 = k0_pay2 x1 x2 x0 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  sl_unfold_words
  rw [View.canon_unit_zero (S := S1x1) hz, View.readCov_unit_zero (S := S1x1) _ hz]
  simp only [View.readAt_eq_ld, harg1.read_unread, harg2.read_unread, harg3.read_unread, harg5.read_unread,
    View.ld_unit_zero (S := S200x16) hz, View.ld_unit_zero (S := S16x10000) hz, View.ld_unit_zero (S := S200x10000) hz,
    View.ld_unit_zero (S := S1x1) hz]

/-- The first point leaves in the output block what it left in the accumulator. -/
theorem out_A (c : Dev nD) (i : grid0.Coords) (arg1 : Memref sig .tc .vmem S200x10000 .f32) (harg1 : arg1.IsWhole) (arg2 : Memref sig .tc .vmem S200x16 .f32) (harg2 : arg2.IsWhole) (arg3 : Memref sig .tc .vmem S16x10000 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S200x10000 .f32) (x1 : Vec F S200x16 .f32) (x2 : Vec F S16x10000 .f32) :
    out0_A_3 c i arg1 harg1 arg2 harg2 arg3 harg3 arg4 harg4 arg5 harg5 hc0 x0 x1 x2 = k0_pay2 x1 x2 x0 k0_pay1 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero (S := S1x1) hz, Cert.Lib.ReadBack.readCov_cons_unit_zero _ hz, View.readCov_unit_zero (S := S1x1) _ hz]
  simp only [View.readAt_eq_ld, harg1.read_unread, harg2.read_unread, harg3.read_unread, harg5.read_unread,
    View.ld_unit_zero (S := S200x16) hz, View.ld_unit_zero (S := S16x10000) hz, View.ld_unit_zero (S := S200x10000) hz,
    View.ld_unit_zero (S := S1x1) hz]

end Cert.KernelIdeal.Pieces

end
-- ==== Proof.LibBlockSums.lean ====
/-
  Three re-indexing lemmas for finite sums in an additive commutative monoid.

  * A sum over the indices of a three-axis shape is the triple sum over the three coordinates.
  * A sum over `A * B` rows is the sum over `A` blocks of the sums over the `B` rows of each block
    (row `t * B + r` is row `r` of block `t`).
  * `G` groups of `K` terms each, group `g`'s terms placed in the first `K` slots of an `R × L` array of slots
    (slot `(r, l)` has number `r * L + l`, and a term is selected for a slot by comparing its number with the slot's):
    summing every slot of every group gives the sum of all `G * K` terms.

  Nothing here depends on what the terms are; the lemmas hold in every additive commutative monoid.
-/
import Mathlib
import Idealize.ShloMosaic.Lib.ValueIdx

open scoped BigOperators

namespace BlockSums

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- a sum over the indices of a three-axis shape is the triple sum over its coordinates -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of block `t`, numbered `t * B + r`, is one of the `A * B` rows. -/
theorem block_row_lt {A B : Nat} (t : Fin A) (r : Fin B) : t.val * B + r.val < A * B :=
  calc t.val * B + r.val < t.val * B + B := Nat.add_lt_add_left r.isLt _
    _ = (t.val + 1) * B := (Nat.succ_mul _ _).symm
    _ ≤ A * B := Nat.mul_le_mul_right _ t.isLt

/-- a sum over N = A·B rows is the sum over A blocks of the sum over the B rows of a block -/
theorem sum_blocks (A B N : Nat) (hN : N = A * B) (g : Fin N → M) :
    ∑ n : Fin N, g n = ∑ t : Fin A, ∑ r : Fin B, g ⟨t.val * B + r.val, by subst hN; exact block_row_lt t r⟩ := by
  subst hN
  rw [← finProdFinEquiv.sum_comp, Fintype.sum_prod_type]
  refine Finset.sum_congr rfl fun t _ => Finset.sum_congr rfl fun r _ => ?_
  congr 1
  apply Fin.ext
  show r.val + B * t.val = t.val * B + r.val
  rw [Nat.mul_comm, Nat.add_comm]

/-- One group: the first `K` terms of a sequence, term `i` selected for the slot numbered `i` of an `R × L` array of
    slots (slot `(r, l)` has number `r * L + l`); when the array has at least `K` slots, summing every slot gives the
    sum of the `K` terms, since each `i < K` is the number of exactly one slot. -/
theorem sum_onehot_slots (R L K : Nat) (hK : K ≤ R * L) (c : Nat → M) :
    ∑ r : Fin R, ∑ l : Fin L, ∑ i ∈ Finset.range K, (if r.val * L + l.val = i then c i else 0)
      = ∑ i ∈ Finset.range K, c i :=
  calc ∑ r : Fin R, ∑ l : Fin L, ∑ i ∈ Finset.range K, (if r.val * L + l.val = i then c i else 0)
      = ∑ r : Fin R, ∑ l : Fin L,
          (fun n : Fin (R * L) => if n.val < K then c n.val else 0) ⟨r.val * L + l.val, block_row_lt r l⟩ := by
        refine Finset.sum_congr rfl fun r _ => Finset.sum_congr rfl fun l _ => ?_
        rw [Finset.sum_ite_eq]
        simp only [Finset.mem_range]
    _ = ∑ n : Fin (R * L), (if n.val < K then c n.val else 0) :=
        (sum_blocks R L (R * L) rfl (fun n : Fin (R * L) => if n.val < K then c n.val else 0)).symm
    _ = ∑ n ∈ Finset.range (R * L), (if n < K then c n else 0) :=
        Fin.sum_univ_eq_sum_range (fun n => if n < K then c n else 0) (R * L)
    _ = ∑ n ∈ Finset.range K, (if n < K then c n else 0) := by
        refine (Finset.sum_subset (Finset.range_subset_range.mpr hK) fun n _ hn => ?_).symm
        exact if_neg fun h => hn (Finset.mem_range.mpr h)
    _ = ∑ n ∈ Finset.range K, c n :=
        Finset.sum_congr rfl fun n hn => if_pos (Finset.mem_range.mp hn)

/-- G groups of K tile sums, group g's sums parked in the first K slots of an R×L slot array (slot (r,l) has number
    r·L + l, one-hot by the slot number): summing every slot of every group gives the sum of all the tile sums -/
theorem sum_slots (G R L K N : Nat) (hK : K ≤ R * L) (hN : N = G * K) (F : Fin N → M) :
    ∑ g : Fin G, ∑ r : Fin R, ∑ l : Fin L, ∑ i ∈ Finset.range K,
        (if r.val * L + l.val = i then (if h : K * g.val + i < N then F ⟨K * g.val + i, h⟩ else 0) else 0)
      = ∑ t : Fin N, F t := by
  rw [sum_blocks G K N hN F]
  refine Finset.sum_congr rfl fun g _ => ?_
  refine (sum_onehot_slots R L K hK
    (fun i => if h : K * g.val + i < N then F ⟨K * g.val + i, h⟩ else 0)).trans ?_
  rw [← Fin.sum_univ_eq_sum_range (fun i => if h : K * g.val + i < N then F ⟨K * g.val + i, h⟩ else 0) K]
  refine Finset.sum_congr rfl fun i _ => ?_
  have h : K * g.val + i.val < N := by
    rw [hN, Nat.mul_comm K g.val]
    exact block_row_lt g i
  rw [dif_pos h]
  congr 1
  apply Fin.ext
  show K * g.val + i.val = g.val * K + i.val
  rw [Nat.mul_comm]

end BlockSums
-- ==== Proof.Spec.lean ====
/-
  The weighted cut of a slab of rows, and its split into blocks of 200 rows.

  For a left factor `L` with 16 columns, a right factor `R` with 16 rows and 10000 columns, and a weight matrix `A`
  with 10000 columns, the cut of an `n`-row slab is

      cut n L R A = Σ_{r < n} Σ_{j < 10000} (Σ_{k < 16} L(r,k) · R(k,j)) · A(r,j).

  Row `t·200 + r` of a 10000-row matrix is row `r` of its block `t`; summing the cuts of the 50 blocks of 200 rows gives
  the cut of the whole matrix.  Only the re-grouping of a finite sum is used, which holds in every additive
  commutative monoid, so no entry needs to be finite.
-/
import Idealize.ShloMosaic.PureOps.Ideal
import Idealize.ShloMosaic.Lib.ValueIdx
import proofs.«179650_j60988535603742_1_alg».proof.Proof.LibBlockSums

open scoped BigOperators

noncomputable section

namespace Cert.GapCut

open Idealize.ShloMosaic Idealize.ShloMosaic.ValueIdx

/-- The cut of an `n`-row slab: over its rows `r` and the 10000 columns `j`, the entry `(r, j)` of the product `L · R`
    times the weight `A (r, j)`. -/
def cut (n : ℕ) (L : (⟨2, ![n, 16]⟩ : Shape).Idx → EReal) (R : (⟨2, ![16, 10000]⟩ : Shape).Idx → EReal)
    (A : (⟨2, ![n, 10000]⟩ : Shape).Idx → EReal) : EReal :=
  ∑ r : Fin n, ∑ j : Fin 10000, (∑ k : Fin 16, L (ix2 r k) * R (ix2 k j)) * A (ix2 r j)

/-- Block `t` of a matrix of 10000 rows and `c` columns: its rows `t·200, …, t·200 + 199`. -/
def rowsOf (c : ℕ) (X : (⟨2, ![10000, c]⟩ : Shape).Idx → EReal) (t : Fin 50) : (⟨2, ![200, c]⟩ : Shape).Idx → EReal :=
  fun y => X (ix2 (⟨t.val * 200 + (y 0).val, by have := idx2_lt0 y; have := t.isLt; omega⟩ : Fin 10000)
    (⟨(y 1).val, idx2_lt1 y⟩ : Fin c))

theorem rowsOf_apply (c : ℕ) (X : (⟨2, ![10000, c]⟩ : Shape).Idx → EReal) (t : Fin 50) (r : Fin 200) (j : Fin c) :
    rowsOf c X t (ix2 r j)
      = X (ix2 (⟨t.val * 200 + r.val, by have := r.isLt; have := t.isLt; omega⟩ : Fin 10000) j) := rfl

/-- The cut of the whole matrix is the sum of the cuts of its 50 blocks of 200 rows. -/
theorem cut_blocks (L : (⟨2, ![10000, 16]⟩ : Shape).Idx → EReal) (R : (⟨2, ![16, 10000]⟩ : Shape).Idx → EReal)
    (A : (⟨2, ![10000, 10000]⟩ : Shape).Idx → EReal) :
    cut 10000 L R A = ∑ t : Fin 50, cut 200 (rowsOf 16 L t) R (rowsOf 10000 A t) := by
  unfold cut
  rw [BlockSums.sum_blocks 50 200 10000 rfl]
  refine Finset.sum_congr rfl fun t _ => Finset.sum_congr rfl fun r _ => Finset.sum_congr rfl fun j _ => ?_
  rw [rowsOf_apply]
  refine congrArg (· * _) (Finset.sum_congr rfl fun k _ => ?_)
  rw [rowsOf_apply]

/-- The running sum of the first `n` block cuts, from zero. -/
def partialCut (L : (⟨2, ![10000, 16]⟩ : Shape).Idx → EReal) (R : (⟨2, ![16, 10000]⟩ : Shape).Idx → EReal)
    (A : (⟨2, ![10000, 10000]⟩ : Shape).Idx → EReal) (n : ℕ) : EReal :=
  ∑ t : Fin 50, if t.val < n then cut 200 (rowsOf 16 L t) R (rowsOf 10000 A t) else 0

theorem partialCut_zero (L : (⟨2, ![10000, 16]⟩ : Shape).Idx → EReal) (R : (⟨2, ![16, 10000]⟩ : Shape).Idx → EReal)
    (A : (⟨2, ![10000, 10000]⟩ : Shape).Idx → EReal) : partialCut L R A 0 = 0 := by
  unfold partialCut
  exact Finset.sum_eq_zero fun t _ => if_neg (Nat.not_lt_zero _)

/-- Adding block `n`'s cut to the first `n` gives the first `n + 1`. -/
theorem partialCut_succ (L : (⟨2, ![10000, 16]⟩ : Shape).Idx → EReal) (R : (⟨2, ![16, 10000]⟩ : Shape).Idx → EReal)
    (A : (⟨2, ![10000, 10000]⟩ : Shape).Idx → EReal) (n : ℕ) (hn : n < 50) :
    partialCut L R A (n + 1) = partialCut L R A n + cut 200 (rowsOf 16 L ⟨n, hn⟩) R (rowsOf 10000 A ⟨n, hn⟩) := by
  unfold partialCut
  have h : ∀ t : Fin 50, (if t.val < n + 1 then cut 200 (rowsOf 16 L t) R (rowsOf 10000 A t) else 0)
      = (if t.val < n then cut 200 (rowsOf 16 L t) R (rowsOf 10000 A t) else 0)
        + (if t = ⟨n, hn⟩ then cut 200 (rowsOf 16 L t) R (rowsOf 10000 A t) else 0) := by
    intro t
    by_cases h1 : t.val < n
    · rw [if_pos (Nat.lt_succ_of_lt h1), if_pos h1, if_neg (fun e => by rw [e] at h1; exact Nat.lt_irrefl _ h1), add_zero]
    · by_cases h2 : t = ⟨n, hn⟩
      · rw [if_neg h1, if_pos h2, zero_add, if_pos (by rw [h2]; exact Nat.lt_succ_self _)]
      · have h3 : ¬ t.val < n + 1 := fun h => h2 (Fin.ext (by
          show t.val = n
          omega))
        rw [if_neg h1, if_neg h2, if_neg h3, add_zero]
  rw [Finset.sum_congr rfl fun t _ => h t, Finset.sum_add_distrib, Finset.sum_ite_eq' Finset.univ (⟨n, hn⟩ : Fin 50),
    if_pos (Finset.mem_univ _)]

/-- After all 50 blocks the running sum is the cut of the whole matrix. -/
theorem partialCut_all (L : (⟨2, ![10000, 16]⟩ : Shape).Idx → EReal) (R : (⟨2, ![16, 10000]⟩ : Shape).Idx → EReal)
    (A : (⟨2, ![10000, 10000]⟩ : Shape).Idx → EReal) : partialCut L R A 50 = cut 10000 L R A := by
  rw [cut_blocks]
  unfold partialCut
  exact Finset.sum_congr rfl fun t _ => if_pos t.isLt

end Cert.GapCut

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.TileValue.lean ====
/-
  What one grid point adds to the running sum, over the extended reals.

  At a grid point the kernel body multiplies its 200 × 16 block `L` of the left factor by the whole 16 × 10000 right
  factor `R`, multiplies the product entry by entry with its 200 × 10000 block `A` of the weights, sums every entry of
  that product to one number, and adds the number to the 1 × 1 accumulator `acc`.  Read at the extended reals the
  matrix product at `(r, j)` is `Σ_k L(r,k) · R(k,j)`, the total is a sum over all index pairs, and a reshape only
  renames the indices of a total; so the stored value is `acc + cut 200 L R A`.
-/
import proofs.«179650_j60988535603742_1_alg».proof.Proof.Gen.KernelIdeal.Skeleton
import proofs.«179650_j60988535603742_1_alg».proof.Proof.Spec
import proofs.«179650_j60988535603742_1_alg».proof.Proof.LibMatmul
import proofs.«179650_j60988535603742_1_alg».proof.Proof.LibReadBack
import Idealize.ShloMosaic.Lib.Pipeline.Value
import Idealize.ShloMosaic.PureOps.Ideal.Laws

open scoped BigOperators

noncomputable section

namespace Cert.KernelIdeal.Tile

open Idealize.ShloMosaic Idealize.ShloMosaic.ValueIdx Cert.KernelIdeal Cert.KernelIdeal.Gen Cert.GapCut Cert.Lib.ReadBack

/-- The entrywise product of the block product `L · R` with the weights, summed over every entry, is the block's cut. -/
theorem sum_product (L : FVec Ideal S200x16 .f32) (R : FVec Ideal S16x10000 .f32) (A : FVec Ideal S200x10000 .f32) :
    ∑ i : S200x10000.Idx, mulf (F := Ideal) (matmul (F := Ideal) dot_S200x16_S16x10000_S200x10000_1_0_0_1_n_n none L R
        (constant S200x10000 .f32 0x00000000#32)) A i
      = cut 200 L R A := by
  refine (sum_idx2 _).trans ?_
  unfold cut
  refine Finset.sum_congr rfl fun r _ => Finset.sum_congr rfl fun j _ => ?_
  exact congrArg (· * A (ix2 r j)) (Cert.Lib.Matmul.matmul_plain_zero_apply none L R r j)

/-- The number the body adds at a point: the total of the weighted block product. -/
theorem total_eq (L : FVec Ideal S200x16 .f32) (R : FVec Ideal S16x10000 .f32) (A : FVec Ideal S200x10000 .f32)
    (hφ : FKind.Formats .f32) (hacc : (0x00000000#32 : BitVec 32) = FKind.add.neutral .f32 hφ) (j : S1.Idx) :
    multiReduction (F := Ideal) .add [1, 2] S1
        (shapeCast S1x200x10000 (mulf (F := Ideal) (matmul (F := Ideal) dot_S200x16_S16x10000_S200x10000_1_0_0_1_n_n none L R
          (constant S200x10000 .f32 0x00000000#32)) A) shapeCasts_S200x10000_S1x200x10000)
        0x00000000#32 reduces_S1x200x10000_S1 hφ hacc j
      = cut 200 L R A :=
  (Ideal.multiReduction_add_total _ _ reduces_S1x200x10000_S1 (fun b => by
      match b with
      | ⟨0, _⟩ => rfl) hφ hacc j).trans ((sum_shapeCast (M := EReal) _ _).trans (sum_product L R A))

/-- The value the body stores into the accumulator: the accumulator's entry plus the block's cut. -/
theorem pay2_eq (L : Vec Ideal S200x16 .f32) (R : Vec Ideal S16x10000 .f32) (A : Vec Ideal S200x10000 .f32)
    (acc : Vec Ideal S1x1 .f32) :
    k0_pay2 (F := Ideal) L R A acc = fun y => acc y + cut 200 L R A := by
  funext y
  unfold k0_pay2
  simp only [shapeCast_self]
  show acc y + _ = acc y + _
  refine congrArg (acc y + ·) ?_
  rw [broadcast_apply]
  unfold extractAt
  rw [shapeCast_eval]
  exact total_eq L R A (.inl rfl) rfl _

/-- The value the first point stores before accumulating: zero. -/
theorem pay1_eq : k0_pay1 (F := Ideal) = fun _ => (0 : EReal) := by
  funext y
  unfold k0_pay1
  simp only [shapeCast_self]
  exact Ideal.ofBits_zero_f32

end Cert.KernelIdeal.Tile

end
-- ==== Proof.Blocks.lean ====
/-
  The blocks the kernel's three input windows read at a grid point, as parts of the arrays the region finds.

  The grid has 50 points.  At point `t` the window on the weights `A` (10000 × 10000) and the window on the left factor
  (10000 × 16) are at block row `t`, block column 0, with blocks of 200 rows and all the columns; so what they read is
  rows `t·200 … t·200 + 199` of their arrays: entry `(r, k)` of the block is entry `(t·200 + r, k)` of the array.  The
  window on the right factor (16 × 10000) is at block `(0, 0)` at every point and its block is the whole array.
-/
import proofs.«179650_j60988535603742_1_alg».proof.Proof.Gen.KernelIdeal.Frame
import proofs.«179650_j60988535603742_1_alg».proof.Proof.Spec
import Idealize.ShloMosaic.Lib.Pipeline.Value

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.GapCut

variable (m : (ℓ : Loc nD τ sig) → Buf (Elt Ideal) ℓ)

/-- Where the three input windows are at each of the 50 grid points: the first two at block row `t`, block column 0;
    the third at block `(0, 0)`. -/
theorem idx_facts : ∀ t : Fin cfg0.N,
    (win0_0.index t 0 = t.val ∧ win0_0.index t 1 = 0) ∧ (win0_1.index t 0 = t.val ∧ win0_1.index t 1 = 0)
      ∧ (win0_2.index t 0 = 0 ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = 0 ∧ win0_2.index t 1 = 0))

/-- The left factor's block at point `t` is rows `t·200 … t·200 + 199` of the left factor. -/
theorem iblk1_eq (c : Dev nD) (t : Fin cfg0.N) (ht : t.val < 50) :
    (iblk m c 1 t : Vec Ideal S200x16 .f32) = rowsOf 16 (V m c main_v4) ⟨t.val, ht⟩ := by
  funext y
  obtain ⟨r, k, rfl⟩ : ∃ (r : Fin 200) (k : Fin 16), y = ix2 r k := ⟨y 0, y 1, eq_ix2 y⟩
  rw [rowsOf_apply]
  unfold iblk
  rw [View.read_apply]
  show V m c main_v4 _ = V m c main_v4 _
  refine congrArg (V m c main_v4) (funext fun a => Fin.ext ?_)
  match a with
  | ⟨0, _⟩ =>
    show win0_1.index t 0 * 200 + 1 * r.val = t.val * 200 + r.val
    rw [(idx_facts t).2.1.1]; omega
  | ⟨1, _⟩ =>
    show win0_1.index t 1 * 16 + 1 * k.val = k.val
    rw [(idx_facts t).2.1.2]; omega

/-- The weights' block at point `t` is rows `t·200 … t·200 + 199` of the weights. -/
theorem iblk0_eq (c : Dev nD) (t : Fin cfg0.N) (ht : t.val < 50) :
    (iblk m c 0 t : Vec Ideal S200x10000 .f32) = rowsOf 10000 (V m c main_arg1) ⟨t.val, ht⟩ := by
  funext y
  obtain ⟨r, k, rfl⟩ : ∃ (r : Fin 200) (k : Fin 10000), y = ix2 r k := ⟨y 0, y 1, eq_ix2 y⟩
  rw [rowsOf_apply]
  unfold iblk
  rw [View.read_apply]
  show V m c main_arg1 _ = V m c main_arg1 _
  refine congrArg (V m c main_arg1) (funext fun a => Fin.ext ?_)
  match a with
  | ⟨0, _⟩ =>
    show win0_0.index t 0 * 200 + 1 * r.val = t.val * 200 + r.val
    rw [(idx_facts t).1.1]; omega
  | ⟨1, _⟩ =>
    show win0_0.index t 1 * 10000 + 1 * k.val = k.val
    rw [(idx_facts t).1.2]; omega

/-- The right factor's block at every point is the whole right factor. -/
theorem iblk2_eq (c : Dev nD) (t : Fin cfg0.N) :
    (iblk m c 2 t : Vec Ideal S16x10000 .f32) = V m c main_v7 := by
  funext y
  obtain ⟨r, k, rfl⟩ : ∃ (r : Fin 16) (k : Fin 10000), y = ix2 r k := ⟨y 0, y 1, eq_ix2 y⟩
  unfold iblk
  rw [View.read_apply]
  show V m c main_v7 _ = V m c main_v7 _
  refine congrArg (V m c main_v7) (funext fun a => Fin.ext ?_)
  match a with
  | ⟨0, _⟩ =>
    show win0_2.index t 0 * 16 + 1 * r.val = r.val
    rw [(idx_facts t).2.2.1]; omega
  | ⟨1, _⟩ =>
    show win0_2.index t 1 * 10000 + 1 * k.val = k.val
    rw [(idx_facts t).2.2.2]; omega

end Cert.KernelIdeal.Blocks

end
-- ==== Proof.Accumulate.lean ====
/-
  The accumulator after each grid point is the running sum of the block cuts.

  Over the extended reals the value the body stores is the accumulator's entry plus the cut of the point's 200-row
  block (the product of the left factor's block with the right factor, weighted entry by entry and totalled).  The first
  point starts from the zero it stores itself; every later point starts from what the point before left.  So after
  point `n` both the accumulator and the output block hold, at their one entry, the sum of the cuts of blocks
  `0, …, n` — by induction on the point, the block read through a window being the corresponding 200 rows of the array.
-/
import proofs.«179650_j60988535603742_1_alg».proof.Proof.Pieces
import proofs.«179650_j60988535603742_1_alg».proof.Proof.TileValue
import proofs.«179650_j60988535603742_1_alg».proof.Proof.Blocks

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.GapCut

variable (m : (ℓ : Loc nD τ sig) → Buf (Elt Ideal) ℓ)

/-- The first point: the accumulator and the output block end at zero plus the block's cut. -/
theorem caseA (c : Dev nD) (i : grid0.Coords) (arg1 : Memref sig .tc .vmem S200x10000 .f32) (harg1 : arg1.IsWhole) (arg2 : Memref sig .tc .vmem S200x16 .f32) (harg2 : arg2.IsWhole) (arg3 : Memref sig .tc .vmem S16x10000 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec Ideal S200x10000 .f32) (x1 : Vec Ideal S200x16 .f32) (x2 : Vec Ideal S16x10000 .f32) :
    (out0_A_3 (F := Ideal) c i arg1 harg1 arg2 harg2 arg3 harg3 arg4 harg4 arg5 harg5 hc0 x0 x1 x2, sout0_A_0 (F := Ideal) c i arg1 harg1 arg2 harg2 arg3 harg3 arg4 harg4 arg5 harg5 hc0 x0 x1 x2)
      = ((fun _ => 0 + cut 200 x1 x2 x0 : Vec Ideal S1x1 .f32), (fun _ => 0 + cut 200 x1 x2 x0 : Vec Ideal S1x1 .f32)) := by
  rw [Pieces.out_A, Pieces.sout_A, Tile.pay2_eq, Tile.pay1_eq]

/-- A later point: the accumulator and the output block end at what the accumulator held plus the block's cut. -/
theorem caseB (c : Dev nD) (i : grid0.Coords) (arg1 : Memref sig .tc .vmem S200x10000 .f32) (harg1 : arg1.IsWhole) (arg2 : Memref sig .tc .vmem S200x16 .f32) (harg2 : arg2.IsWhole) (arg3 : Memref sig .tc .vmem S16x10000 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec Ideal S200x10000 .f32) (x1 : Vec Ideal S200x16 .f32) (x2 : Vec Ideal S16x10000 .f32) (xs0 : Vec Ideal S1x1 .f32) :
    (out0_B_3 (F := Ideal) c i arg1 harg1 arg2 harg2 arg3 harg3 arg4 harg4 arg5 harg5 hc0 x0 x1 x2 xs0, sout0_B_0 (F := Ideal) c i arg1 harg1 arg2 harg2 arg3 harg3 arg4 harg4 arg5 harg5 hc0 x0 x1 x2 xs0)
      = ((fun y => xs0 y + cut 200 x1 x2 x0 : Vec Ideal S1x1 .f32), (fun y => xs0 y + cut 200 x1 x2 x0 : Vec Ideal S1x1 .f32)) := by
  rw [Pieces.out_B, Pieces.sout_B, Tile.pay2_eq]

/-- The cut of the blocks the windows read at point `t` is the cut of rows `t·200 … t·200 + 199` of the arrays. -/
theorem blockCut_eq (c : Dev nD) (t : Fin cfg0.N) (ht : t.val < 50) :
    cut 200 (iblk m c 1 t) (iblk m c 2 t) (iblk m c 0 t)
      = cut 200 (rowsOf 16 (V m c main_v4) ⟨t.val, ht⟩) (V m c main_v7) (rowsOf 10000 (V m c main_arg1) ⟨t.val, ht⟩) :=
  congr (congr (congrArg (cut 200) (Blocks.iblk1_eq m c t ht)) (Blocks.iblk2_eq m c t)) (Blocks.iblk0_eq m c t ht)

/-- After point `n` the output block and the accumulator hold the sum of the cuts of blocks `0, …, n`. -/
theorem outsAt_eq (c : Dev nD) : ∀ (n : ℕ) (h : n < cfg0.N),
    outsAt0 m c n h
      = ((fun _ => partialCut (V m c main_v4) (V m c main_v7) (V m c main_arg1) (n + 1) : Vec Ideal S1x1 .f32),
         (fun _ => partialCut (V m c main_v4) (V m c main_v7) (V m c main_arg1) (n + 1) : Vec Ideal S1x1 .f32))
  | 0, h => by
    have h50 : (0 : ℕ) < 50 := by decide
    refine (outsAt0_A m c ⟨0, h⟩ rfl).trans ?_
    refine (caseA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (iblk m c 0 ⟨0, h⟩) (iblk m c 1 ⟨0, h⟩) (iblk m c 2 ⟨0, h⟩)).trans ?_
    have e : (0 : EReal) + cut 200 (iblk m c 1 ⟨0, h⟩) (iblk m c 2 ⟨0, h⟩) (iblk m c 0 ⟨0, h⟩)
        = partialCut (V m c main_v4) (V m c main_v7) (V m c main_arg1) (0 + 1) := by
      rw [blockCut_eq m c ⟨0, h⟩ h50, partialCut_succ _ _ _ 0 h50, partialCut_zero]
    exact Prod.ext (funext fun _ => e) (funext fun _ => e)
  | n + 1, h => by
    have hN : cfg0.N = 50 := N_0
    have h50 : n + 1 < 50 := by rw [hN] at h; exact h
    have hB : ¬(⟨n + 1, h⟩ : Fin cfg0.N).val % 50 = 0 := by dsimp only; omega
    refine (outsAt0_B m c ⟨n + 1, h⟩ hB).trans ?_
    refine (caseB c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hB ((hcond0_0 ⟨n + 1, h⟩).mp hh)) (iblk m c 0 ⟨n + 1, h⟩) (iblk m c 1 ⟨n + 1, h⟩) (iblk m c 2 ⟨n + 1, h⟩)
      (outsAt0 m c n (Nat.lt_of_succ_lt h)).2).trans ?_
    have e : partialCut (V m c main_v4) (V m c main_v7) (V m c main_arg1) (n + 1)
          + cut 200 (iblk m c 1 ⟨n + 1, h⟩) (iblk m c 2 ⟨n + 1, h⟩) (iblk m c 0 ⟨n + 1, h⟩)
        = partialCut (V m c main_v4) (V m c main_v7) (V m c main_arg1) (n + 1 + 1) := by
      rw [blockCut_eq m c ⟨n + 1, h⟩ h50, partialCut_succ _ _ _ (n + 1) h50]
    rw [outsAt_eq c n (Nat.lt_of_succ_lt h)]
    exact Prod.ext (funext fun _ => e) (funext fun _ => e)

end Cert.KernelIdeal.Acc

end
-- ==== Proof.HostSide.lean ====
/-
  The arrays the host hands the kernel, and the value the whole program returns, as functions of the three arguments.

  Before the kernel runs the host computes the left factor `Yn = Y / γ` (each column `k` of `Y` divided by
  `γ_k = Σ_i Y(i,k) · degree(i)`) and the right factor `(1 − Y)ᵀ`; the weights are the argument `A` itself.  After the
  kernel the host adds to the kernel's one number the partition term `Σ_k (Σ_i Y(i,k) − 625)²`, which depends on `Y`
  alone.  The factors and the partition term are kept as the host's own expressions — the same on the reference's
  side — and are never opened; the program's value is the cut of the whole matrix plus the partition term.
-/
import proofs.«179650_j60988535603742_1_alg».proof.Proof.Gen.KernelIdeal.Frame
import proofs.«179650_j60988535603742_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.HostSide

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.GapCut

variable (m : (ℓ : Loc nD τ sig) → Buf (Elt Ideal) ℓ)

/-- The left factor as the host computes it: each column of `Y` divided by that column's degree-weighted sum. -/
def leftFactor (x0 : FVec Ideal S10000x16 .f32) (x2 : FVec Ideal S10000x1 .f32) : FVec Ideal S10000x16 .f32 :=
  Host.divf (F := Ideal) x0 (broadcastInDim S10000x16 ![0, 1] bcast_S1x16_S10000x16_0_1
    (shapeCast S1x16 (Host.dotGeneral (F := Ideal) dot_S16x10000_S10000x1_S16x1_1_0_0_1_n_n none
      (transpose S16x10000 [1, 0] x0 transposes_S10000x16_S16x10000_1_0) x2) shapeCasts_S16x1_S1x16))

/-- The right factor as the host computes it: one minus `Y`, transposed. -/
def rightFactor (x0 : FVec Ideal S10000x16 .f32) : FVec Ideal S16x10000 .f32 :=
  transpose S16x10000 [1, 0]
    (subf (F := Ideal) (broadcastInDim S10000x16 ![] bcast_S_S10000x16 (constant (F := Ideal) S_ .f32 0x3F800000#32)) x0)
    transposes_S10000x16_S16x10000_1_0

/-- The partition term as the host computes it: the sum over the 16 columns of the squared difference between the
    column's sum and 625. -/
def partition (x0 : FVec Ideal S10000x16 .f32) : FVec Ideal S_ .f32 :=
  Host.reduceAdd (F := Ideal)
    (mulf (F := Ideal)
      (subf (F := Ideal) (Host.reduceAdd (F := Ideal) x0 (constant (F := Ideal) S_ .f32 0x00000000#32) reducesTo_S10000x16_S16_d0 h_S_)
        (broadcastInDim S16 ![] bcast_S_S16 (constant (F := Ideal) S_ .f32 0x441C4000#32)))
      (subf (F := Ideal) (Host.reduceAdd (F := Ideal) x0 (constant (F := Ideal) S_ .f32 0x00000000#32) reducesTo_S10000x16_S16_d0 h_S_)
        (broadcastInDim S16 ![] bcast_S_S16 (constant (F := Ideal) S_ .f32 0x441C4000#32))))
    (constant (F := Ideal) S_ .f32 0x00000000#32) reducesTo_S16_S_d0 h_S_

/-- What the kernel's 1 × 1 output array ends holding, as a function of the arguments: the cut of the whole matrix. -/
def cutOf (x0 : FVec Ideal S10000x16 .f32) (x1 : FVec Ideal S10000x10000 .f32) (x2 : FVec Ideal S10000x1 .f32) :
    FVec Ideal S1x1 .f32 :=
  fun _ => cut 10000 (leftFactor x0 x2) (rightFactor x0) x1

/-- The program's value as a function of the arguments: the kernel's number, reshaped to a scalar, plus the partition
    term. -/
def valueOf (x0 : FVec Ideal S10000x16 .f32) (x1 : FVec Ideal S10000x10000 .f32) (x2 : FVec Ideal S10000x1 .f32) :
    FVec Ideal S_ .f32 :=
  addf (F := Ideal) (shapeCast S_ (cutOf x0 x1 x2) shapeCasts_S1x1_S_) (partition x0)

/-- At its one index the program's value is the cut plus the partition term. -/
theorem valueOf_apply (x0 : FVec Ideal S10000x16 .f32) (x1 : FVec Ideal S10000x10000 .f32) (x2 : FVec Ideal S10000x1 .f32)
    (i : S_.Idx) : valueOf x0 x1 x2 i = cut 10000 (leftFactor x0 x2) (rightFactor x0) x1 + partition x0 i := rfl

/-- The region finds the left factor in the buffer its second window reads. -/
theorem V_v4 (c : Dev nD) :
    (V m c main_v4 : FVec Ideal S10000x16 .f32)
      = leftFactor (m ((c : Thread nD τ).loc main_arg0)) (m ((c : Thread nD τ).loc main_arg2)) := by
  show StableHlo.after hostOps0 (fun b => m (c, b)) (Proc.devRef .tc main_v4) = _
  after_results
  rfl

/-- The region finds the right factor in the buffer its third window reads. -/
theorem V_v7 (c : Dev nD) :
    (V m c main_v7 : FVec Ideal S16x10000 .f32) = rightFactor (m ((c : Thread nD τ).loc main_arg0)) := by
  show StableHlo.after hostOps0 (fun b => m (c, b)) (Proc.devRef .tc main_v7) = _
  after_results
  rfl

end Cert.KernelIdeal.HostSide

end
-- ==== Proof.Final.lean ====
/-
  The kernel program's run, read: its result is the cut of the whole matrix plus the partition term.

  The output window's one block is the whole 1 × 1 output array and is written back once, after the last grid point
  (point 49), when the output block holds the sum of the cuts of all 50 row blocks — the cut of the whole matrix, of
  the left and right factors the host computed and of the weights.  The host then reshapes that array to a scalar and
  adds the partition term computed from the argument `Y`, which no operation has changed.
-/
import proofs.«179650_j60988535603742_1_alg».proof.Proof.Accumulate
import proofs.«179650_j60988535603742_1_alg».proof.Proof.HostSide
import Idealize.ShloMosaic.Lib.Pipeline.Value
import Idealize.ShloMosaic.Lib.StableHlo.Run
import Idealize.ShloMosaic.Lib.Tactic

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.GapCut Cert.KernelIdeal.HostSide

variable (m : (ℓ : Loc nD τ sig) → Buf (Elt Ideal) ℓ) (ρ : Dev nD → PrngReg)

/-- The last grid point, the one after which the output block is written back. -/
abbrev tLast : Fin cfg0.N := ⟨49, by rw [show cfg0.N = 50 from N_0]; decide⟩

/-- The output array after the run: at its one entry the cut of the whole matrix. -/
abbrev result (c : Dev nD) : Buf (Elt Ideal) ((c : Thread nD τ).loc main_v8) :=
  cutOf (m ((c : Thread nD τ).loc main_arg0)) (m ((c : Thread nD τ).loc main_arg1)) (m ((c : Thread nD τ).loc main_arg2))

/-- The one write-back, at point 49, writes it: block (0, 0) of the 1 × 1 array read through zero offsets is the array,
    and after point 49 the output block holds the sum of all 50 block cuts. -/
theorem flushed_eq (c : Dev nD) (t : Fin cfg0.N) (hf : (cfg0.win 3).flush t = true) :
    (dats m 0 c).flushed 3 t = ((cfg0.win 3).blk t).view.read (Elt Ideal) (result m c) := by
  have hN : cfg0.N = 50 := N_0
  have h49 : t.val = 49 := by have := (flush0_3 t).mp hf; have := t.isLt; omega
  obtain rfl : t = tLast := Fin.ext h49
  show (cfg0.win 3).cut (grid0.coords tLast) ((dats m 0 c).after 3 tLast) = _
  rw [after0_3, Acc.outsAt_eq]
  show (cfg0.win 3).cut (grid0.coords tLast)
    (fun _ => partialCut (V m c main_v4) (V m c main_v7) (V m c main_arg1) 50) = _
  rw [partialCut_all, V_v4 m c, V_v7 m c, V_main_arg1 m c]
  have hz' : (fun a => win0_3.index tLast a * main_v8.ty.shape.size a) = fun _ => 0 :=
    funext fun a => by fin_cases a <;> decide
  exact (Memref.read_access_unit_zero (Elt Ideal) main_v8 hz' (fun a => by rw [congrFun hz' a]; simp) (result m c)).symm

/-- So the output array ends holding the cut of the whole matrix: point 49's block covers it. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v8).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The program's value on core `c`. -/
abbrev value (c : Dev nD) : Buf (Elt Ideal) ((c : Thread nD τ).loc main_v15) :=
  valueOf (m ((c : Thread nD τ).loc main_arg0)) (m ((c : Thread nD τ).loc main_arg1)) (m ((c : Thread nD τ).loc main_arg2))

/-- The host operations after the kernel leave the program's value in the result buffer: they read the output array the
    kernel wrote and the argument `Y`, which nothing has written. -/
theorem tail_eq (c : Dev nD) :
    Pipeline.afterTail₀ cfgs (dats m) 0 (V0 m) [hostOps1] c main_v15 = value m c := by
  unfold Pipeline.afterTail₀
  show StableHlo.after hostOps1 _ (Proc.devRef .tc main_v15) = _
  after_results
  have e8 : Pipeline.withArrays (cfgs 0).spec c (V0 m c) (fun w => (dats m 0 c).arrAt w (cfgs 0).N) (Proc.devRef .tc main_v8)
      = result m c :=
    (Pipeline.withArrays_arr spec0 launch0.win.arr_inj c _ _ 3).trans (final_o m c)
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  rw [e8, e0]
  rfl

/-- The run, read: the result buffer at the program's value, the three arguments unchanged. -/
theorem run : θ_run defs (onTc (τ := τ) (main (F := Ideal))) ⟨m, fun _ => 0, ρ⟩ fun r => ∀ c : Dev nD,
      r.2.mem ((c.tc : Thread nD τ).loc main_v15) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.LibProjection.lean ====
/-
  One matrix of a stack multiplied into a row block, read at an entry, over the extended reals, at any extents.

  `slab_apply`: slab `r` of a stack `[R, b, c]`, cut out as `[1, b, c]` and viewed as the matrix `[b, c]`, reads at
  `(p, q)` the stack at `(r, p, q)`.
  `dotGeneral_plain_apply`: the host's plain product of `[M, K]` by `[K, N]` at `(p, e)` is the sum over the contracted
  coordinate `f` of the left operand at `(p, f)` times the right at `(f, e)` (it has no accumulator).
  `slabProduct_apply`: a row block `[M, K]` (viewed as itself) times a one-matrix block `[1, K, N]` viewed as `[K, N]`,
  into the zero accumulator, the product viewed as the one-slab block `[1, M, N]`: at `(u, p, e)` the sum over `f` of the
  row block at `(p, f)` times the matrix block at `(0, f, e)`.
-/
import Idealize.ShloMosaic.Lib.ValueIdx
import Idealize.ShloMosaic.Lib.ValueLayout
import Idealize.ShloMosaic.Lib.Pipeline.Value
import Idealize.ShloMosaic.PureOps.Ideal.Laws
import proofs.«179650_j60988535603742_1_alg».proof.Proof.LibMatmul

open scoped BigOperators

noncomputable section

namespace Cert.Lib.Projection

open Idealize.ShloMosaic Idealize.ShloMosaic.ValueIdx

/-- Slab `r` of a stack, cut out and viewed as a matrix, at `(p, q)`. -/
theorem slab_apply {α : Type} {R b c : ℕ} (off : Fin 3 → ℕ) (x : (⟨3, ![R, b, c]⟩ : Shape).Idx → α)
    (h : (⟨3, ![R, b, c]⟩ : Shape).Slices off ⟨3, ![1, b, c]⟩)
    (h' : (⟨3, ![1, b, c]⟩ : Shape).ShapeCasts ⟨2, ![b, c]⟩)
    (r : Fin R) (h0 : off 0 = r.val) (h1 : off 1 = 0) (h2 : off 2 = 0) (p : Fin b) (q : Fin c) :
    shapeCast ⟨2, ![b, c]⟩ (extractStridedSlice ⟨3, ![1, b, c]⟩ off x h) h' (ix2 p q) = x (ix3 r p q) :=
  (shapeCast_1ab_ab_apply _ h' p q).trans (extractStridedSlice_apply off x h _ _ (fun a => by
    match a with
    | ⟨0, _⟩ => show r.val = off 0 + 0; omega
    | ⟨1, _⟩ => show p.val = off 1 + p.val; omega
    | ⟨2, _⟩ => show q.val = off 2 + q.val; omega))

/-- The host's plain product at `(p, e)`. -/
theorem dotGeneral_plain_apply {M K N : ℕ} {φ₁ φ₂ : FTy} (prec : Option ContractPrecision)
    (L : FVec Ideal ⟨2, ![M, K]⟩ φ₁) (R : FVec Ideal ⟨2, ![K, N]⟩ φ₂) (p : Fin M) (e : Fin N) :
    Host.dotGeneral (F := Ideal) (DotDims.plain M K N) prec L R (ix2 p e) = ∑ f : Fin K, L (ix2 p f) * R (ix2 f e) :=
  (Ideal.dotGeneral_apply (DotDims.plain M K N) prec .single L R (ix2 p e)).trans (Cert.Lib.Matmul.plain_sum L R p e)

/-- A row block times one matrix block into zero, viewed as a one-slab block, at `(u, p, e)`. -/
theorem slabProduct_apply {M K N : ℕ} {φ₁ φ₂ : FTy} (prec : Option ContractPrecision)
    (v0 : FVec Ideal ⟨2, ![M, K]⟩ φ₁) (h0 : (⟨2, ![M, K]⟩ : Shape).ShapeCasts ⟨2, ![M, K]⟩)
    (v2 : FVec Ideal ⟨3, ![1, K, N]⟩ φ₂) (h2 : (⟨3, ![1, K, N]⟩ : Shape).ShapeCasts ⟨2, ![K, N]⟩)
    (h3 : (⟨2, ![M, N]⟩ : Shape).ShapeCasts ⟨3, ![1, M, N]⟩) (u : Fin 1) (p : Fin M) (e : Fin N) :
    shapeCast ⟨3, ![1, M, N]⟩ (matmul (F := Ideal) (DotDims.plain M K N) prec (shapeCast ⟨2, ![M, K]⟩ v0 h0)
        (shapeCast ⟨2, ![K, N]⟩ v2 h2) (constant ⟨2, ![M, N]⟩ .f32 0x00000000#32)) h3 (ix3 u p e)
      = ∑ f : Fin K, v0 (ix2 p f) * v2 (ix3 (0 : Fin 1) f e) := by
  refine (shapeCast_ab_1ab_apply _ h3 u p e).trans ?_
  refine (Cert.Lib.Matmul.matmul_plain_zero_apply prec _ _ p e).trans ?_
  refine Finset.sum_congr rfl fun f _ => ?_
  rw [shapeCast_self, shapeCast_1ab_ab_apply]

end Cert.Lib.Projection

end
-- ==== Proof.HostLaws.lean ====
/-
  Two readings of host operations over the extended reals, at the shapes of this problem.

  * The host's sum over both axes of `(Yn · W) ⊙ A`, from the initial value zero, is the cut of the whole 10000-row
    matrix: the sum over all index pairs `(r, j)` of `(Σ_k Yn(r,k) · W(k,j)) · A(r,j)`.
  * Subtracting from one and transposing commute: `(1 − Y)ᵀ = 1 − Yᵀ`, both being `1 − Y(j, k)` at `(k, j)`.
-/
import proofs.«179650_j60988535603742_1_alg».proof.Proof.Spec
import proofs.«179650_j60988535603742_1_alg».proof.Proof.LibProjection
import Idealize.ShloMosaic.Lib.Pipeline.Value
import Idealize.ShloMosaic.PureOps.Ideal.Laws

open scoped BigOperators

noncomputable section

namespace Cert.GapCut

open Idealize.ShloMosaic Idealize.ShloMosaic.ValueIdx

/-- The host's total of the weighted product, from zero, is the cut of the whole matrix. -/
theorem hostCut_eq (Yn : FVec Ideal ⟨2, ![10000, 16]⟩ .f32) (W : FVec Ideal ⟨2, ![16, 10000]⟩ .f32)
    (A : FVec Ideal ⟨2, ![10000, 10000]⟩ .f32)
    (h : (⟨2, ![10000, 10000]⟩ : Shape).ReducesTo [0, 1] ⟨0, ![]⟩) (hu : 0 < (⟨0, ![]⟩ : Shape).numel)
    (i : (⟨0, ![]⟩ : Shape).Idx) :
    Host.reduceAdd (F := Ideal) (mulf (F := Ideal) (Host.dotGeneral (F := Ideal) (DotDims.plain 10000 16 10000) none Yn W) A)
        (constant (F := Ideal) ⟨0, ![]⟩ .f32 0x00000000#32) h hu i
      = cut 10000 Yn W A := by
  unfold Host.reduceAdd
  rw [Ideal.hostReduceAdd_def]
  refine (Ideal.hostReduceAdd_total h (fun b => b.elim0) _ _ i).trans ?_
  rw [constant_apply, Ideal.ofBits_zero_f32, zero_add]
  refine (sum_idx2 _).trans ?_
  unfold cut
  refine Finset.sum_congr rfl fun r _ => Finset.sum_congr rfl fun j _ => ?_
  exact congrArg (· * A (ix2 r j)) (Cert.Lib.Projection.dotGeneral_plain_apply none Yn W r j)

/-- The index of the untransposed matrix that the transpose reads at `(k, j)`: `(j, k)`. -/
abbrev swapIdx (i : (⟨2, ![16, 10000]⟩ : Shape).Idx) : (⟨2, ![10000, 16]⟩ : Shape).Idx :=
  ix2 (⟨(i 1).val, idx2_lt1 i⟩ : Fin 10000) (⟨(i 0).val, idx2_lt0 i⟩ : Fin 16)

/-- One minus a matrix, transposed, is one minus the transposed matrix. -/
theorem oneMinus_transpose (Y : FVec Ideal ⟨2, ![10000, 16]⟩ .f32) (one : BitVec 32)
    (ht : (⟨2, ![10000, 16]⟩ : Shape).Transposes [1, 0] ⟨2, ![16, 10000]⟩)
    (hb1 : (⟨0, ![]⟩ : Shape).BroadcastsInDim ⟨2, ![10000, 16]⟩ (![] : Fin 0 → Fin 2))
    (hb2 : (⟨0, ![]⟩ : Shape).BroadcastsInDim ⟨2, ![16, 10000]⟩ (![] : Fin 0 → Fin 2)) :
    transpose ⟨2, ![16, 10000]⟩ [1, 0]
        (subf (F := Ideal) (broadcastInDim ⟨2, ![10000, 16]⟩ ![] hb1 (constant (F := Ideal) ⟨0, ![]⟩ .f32 one)) Y) ht
      = subf (F := Ideal) (broadcastInDim ⟨2, ![16, 10000]⟩ ![] hb2 (constant (F := Ideal) ⟨0, ![]⟩ .f32 one))
          (transpose ⟨2, ![16, 10000]⟩ [1, 0] Y ht) := by
  funext i
  have hs : ∀ b : Fin 2, (swapIdx i ([1, 0] : List (Fin 2))[b.cast ht.2.1]).val = (i b).val := fun b => by
    match b with
    | ⟨0, _⟩ => rfl
    | ⟨1, _⟩ => rfl
  rw [transpose_apply [1, 0] _ ht i (swapIdx i) hs, subf_apply, subf_apply,
    transpose_apply [1, 0] Y ht i (swapIdx i) hs,
    broadcastInDim_apply _ hb1 _ (swapIdx i) ix0 (fun a => a.elim0),
    broadcastInDim_apply _ hb2 _ i ix0 (fun a => a.elim0)]

end Cert.GapCut

end
-- ==== Proof.Bridge.lean ====
/-
  The reference's value is the kernel program's value, as functions of the three arguments.

  The reference computes the same left factor `Y / γ` by the same host operations; its right factor is `1 − Yᵀ` where
  the kernel program's is `(1 − Y)ᵀ`, the same matrix; it multiplies the full 10000 × 10000 product of the two
  entry by entry with the weights and sums every entry from zero — the cut of the whole matrix — and adds the same
  partition term.  Nothing here needs an entry to be finite.
-/
import proofs.«179650_j60988535603742_1_alg».proof.Proof.Gen.ReferenceIdeal.Read
import proofs.«179650_j60988535603742_1_alg».proof.Proof.HostSide
import proofs.«179650_j60988535603742_1_alg».proof.Proof.HostLaws

noncomputable section

namespace Cert.Bridge

open Idealize.ShloMosaic Idealize.ShloMosaic.ValueIdx Cert.GapCut
open Cert.KernelIdeal.HostSide (leftFactor rightFactor partition valueOf valueOf_apply)
open Cert.ReferenceIdeal Cert.ReferenceIdeal.Gen Cert.ReferenceIdeal.Read

/-- The reference's left factor is the kernel program's: the same host operations on the same arguments. -/
theorem left_eq (x0 : FVec Ideal S10000x16 .f32) (x2 : FVec Ideal S10000x1 .f32) :
    val_main_v4 (F := Ideal) x0 x2 = leftFactor x0 x2 := rfl

/-- The reference's right factor `1 − Yᵀ` is the kernel program's `(1 − Y)ᵀ`. -/
theorem right_eq (x0 : FVec Ideal S10000x16 .f32) : val_main_v7 (F := Ideal) x0 = rightFactor x0 := by
  unfold val_main_v7 val_main_v6 val_main_v5 val_main_cst rightFactor
  exact (oneMinus_transpose x0 0x3F800000#32 _ _ _).symm

/-- The reference's partition term is the kernel program's: the same host operations on the same argument. -/
theorem part_eq (x0 : FVec Ideal S10000x16 .f32) : val_main_v15 (F := Ideal) x0 = partition x0 := rfl

/-- The reference's total of the weighted product is the cut of the whole matrix of its two factors. -/
theorem total_eq (x0 : FVec Ideal S10000x16 .f32) (x1 : FVec Ideal S10000x10000 .f32) (x2 : FVec Ideal S10000x1 .f32)
    (i : S_.Idx) :
    val_main_v10 (F := Ideal) x0 x1 x2 i = cut 10000 (val_main_v4 (F := Ideal) x0 x2) (val_main_v7 (F := Ideal) x0) x1 := by
  unfold val_main_v10 val_main_v9 val_main_v8 val_main_cst_0
  exact hostCut_eq _ _ _ _ _ i

/-- The reference's result is the kernel program's value of the same arguments. -/
theorem ref_eq (x0 : FVec Ideal S10000x16 .f32) (x1 : FVec Ideal S10000x10000 .f32) (x2 : FVec Ideal S10000x1 .f32) :
    val_main_v16 (F := Ideal) x0 x1 x2 = valueOf x0 x1 x2 := by
  funext i
  rw [valueOf_apply, ← left_eq, ← right_eq, ← part_eq, ← total_eq x0 x1 x2 i]
  rfl

end Cert.Bridge

end
-- ==== Proof.lean ====
/-
  The proof of `Cert.Claim`: the kernel program and the reference return the same extended real.

  Both programs compute, from `Y` (10000 × 16), `A` (10000 × 10000) and `degree` (10000 × 1),

      Σ_{i,j} (Σ_k Yn(i,k) · (1 − Y(j,k))) · A(i,j)  +  Σ_k (Σ_i Y(i,k) − 625)²,    Yn(i,k) = Y(i,k) / Σ_i Y(i,k)·degree(i).

  The reference forms the whole 10000 × 10000 product and sums every entry.  The kernel streams `A` in 50 blocks of 200
  rows: at each grid point it multiplies the block's 200 rows of `Yn` by `(1 − Y)ᵀ`, weights the product by the block
  of `A`, totals it, and adds the total to a running sum that starts at zero; after the last point the running sum is
  written out, and the host adds the second term.  Over the extended reals a total over 10000 rows is the sum of
  the totals over the 50 blocks of 200 rows — addition is commutative and associative there, with or without
  infinities — so the two results are equal; the precondition that the inputs are finite is not used.

  Modules: `Spec` (the cut of a slab of rows and its split into blocks), `TileValue` (what one grid point adds),
  `Pieces` (what one run of the body leaves in the accumulator and the output block), `Blocks` (a window's block is 200
  rows of its array), `Accumulate` (the running sum, by induction on the grid point), `HostSide` (the host's factors
  and the program's value as functions of the arguments), `Final` (the kernel program's run, read), `HostLaws` and
  `Bridge` (the reference's value is the same function).  The frames of the two kernel programs are the generated ones;
  the reference's is its generated run with the result dropped; the ideal pass rewrote nothing.
-/
import proofs.«179650_j60988535603742_1_alg».proof.Defs
import proofs.«179650_j60988535603742_1_alg».proof.Proof.Gen.Kernel
import proofs.«179650_j60988535603742_1_alg».proof.Proof.Gen.Kernel.Skeleton
import proofs.«179650_j60988535603742_1_alg».proof.Proof.Gen.Kernel.Launch
import proofs.«179650_j60988535603742_1_alg».proof.Proof.Gen.Kernel.Points
import proofs.«179650_j60988535603742_1_alg».proof.Proof.Gen.Kernel.Frame
import proofs.«179650_j60988535603742_1_alg».proof.Proof.Gen.KernelIdeal
import proofs.«179650_j60988535603742_1_alg».proof.Proof.Gen.KernelIdeal.Skeleton
import proofs.«179650_j60988535603742_1_alg».proof.Proof.Gen.KernelIdeal.Launch
import proofs.«179650_j60988535603742_1_alg».proof.Proof.Gen.KernelIdeal.Points
import proofs.«179650_j60988535603742_1_alg».proof.Proof.Gen.KernelIdeal.Frame
import proofs.«179650_j60988535603742_1_alg».proof.Proof.Gen.ReferenceIdeal
import proofs.«179650_j60988535603742_1_alg».proof.Proof.Gen.ReferenceIdeal.Run
import proofs.«179650_j60988535603742_1_alg».proof.Proof.Gen.ReferenceIdeal.Read
import proofs.«179650_j60988535603742_1_alg».proof.Proof.Gen.Pre_finite_inputs
import proofs.«179650_j60988535603742_1_alg».proof.Proof.Final
import proofs.«179650_j60988535603742_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel program is the kernel program's own text: nothing was rewritten. -/
theorem preserves : Cert.preserves_Kernel_KernelIdeal := trivial

/-- From memories that agree on the arguments both programs end with the same result: the cut of the whole matrix plus
    the partition term, as one function of the three arguments. -/
theorem algebraic : Cert.algebraic_KernelIdeal_ReferenceIdeal := by
  intro m ρ m' ρ' _ hagree
  refine ⟨fun c => Cert.KernelIdeal.Final.value m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v16_eq]
  exact Cert.Bridge.ref_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
